-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x256 : Shape := ⟨2, ![4096, 256]⟩
abbrev S256 : Shape := ⟨1, ![256]⟩
abbrev S256x4096 : Shape := ⟨2, ![256, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x256 .f32) (main_arg2 : FVec F S256 .f32) (main_arg3 : FVec F S256x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_v13 main_v16
-- ==== Kernel.lean ====
abbrev S8192x4096 : Shape := ⟨2, ![8192, 4096]⟩
abbrev S4096x256 : Shape := ⟨2, ![4096, 256]⟩
abbrev S256 : Shape := ⟨1, ![256]⟩
abbrev S256x4096 : Shape := ⟨2, ![256, 4096]⟩
abbrev S4096 : Shape := ⟨1, ![4096]⟩
abbrev S1x256 : Shape := ⟨2, ![1, 256]⟩
abbrev S1x4096 : Shape := ⟨2, ![1, 4096]⟩
abbrev S128x4096 : Shape := ⟨2, ![128, 4096]⟩
abbrev S128x256 : Shape := ⟨2, ![128, 256]⟩
abbrev S128 : Shape := ⟨1, ![128]⟩
abbrev S128x1 : Shape := ⟨2, ![128, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S256, .f32⟩
  | .hbm, ⟨3, _⟩ => ⟨S256x4096, .f32⟩
  | .hbm, ⟨4, _⟩ => ⟨S4096, .f32⟩
  | .hbm, ⟨5, _⟩ => ⟨S4096x256, .bf16⟩
  | .hbm, ⟨6, _⟩ => ⟨S256x4096, .bf16⟩
  | .hbm, ⟨7, _⟩ => ⟨S1x256, .f32⟩
  | .hbm, ⟨8, _⟩ => ⟨S1x4096, .f32⟩
  | .hbm, ⟨9, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x256, .bf16⟩
  | .local _ .vmem, ⟨3, _⟩ => ⟨S1x256, .f32⟩
  | .local _ .vmem, ⟨4, _⟩ => ⟨S256x4096, .bf16⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S256_S1x256 : S256.ShapeCasts S1x256
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  dot_S128x4096_S4096x256_S128x256_1_0_0_1_n_n_wf : DotDims.WF S128x4096 S4096x256 S128x256 [1] [0] [0] [1] [] []
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x4096.size a
  hwx0_3 : ∀ i : grid0.Coords, EltTy.bits .bf16 = 32 ∨ (Rect.block (s := S256x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x256 : Shape := ⟨2, ![4096, 256]⟩
abbrev S256 : Shape := ⟨1, ![256]⟩
abbrev S256x4096 : Shape := ⟨2, ![256, 4096]⟩
abbrev S4096 : Shape := ⟨1, ![4096]⟩
abbrev S8192x256 : Shape := ⟨2, ![8192, 256]⟩
abbrev S1x256 : Shape := ⟨2, ![1, 256]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S256, .f32⟩
  | .hbm, ⟨3, _⟩ => ⟨S256x4096, .f32⟩
  | .hbm, ⟨4, _⟩ => ⟨S4096, .f32⟩
  | .hbm, ⟨5, _⟩ => ⟨S8192x256, .f32⟩
  | .hbm, ⟨6, _⟩ => ⟨S1x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S_, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S_, .f32⟩
  | .hbm, ⟨37, _⟩ => ⟨S8192x4096, .f32⟩
  | .hbm, ⟨38, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call3_v0 : Ref sig .tc := ⟨.hbm, 36, rfl⟩
abbrev main_call3_v1 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  dot_S8192x4096_S4096x256_S8192x256_1_0_0_1_n_n_wf : DotDims.WF S8192x4096 S4096x256 S8192x256 [1] [0] [0] [1] [] []
  dot_S8192x256_S256x4096_S8192x4096_1_0_0_1_n_n_wf : DotDims.WF S8192x256 S256x4096 S8192x4096 [1] [0] [0] [1] [] []

variable [Facts₀]

def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf

class Facts : Prop extends Facts₀ where

variable [Facts]
-- ==== Proof.RowSpec.lean ====
/-
  One row of the masked, row-normalised two-layer perceptron, as a function of one input row.

  For an input row x (4096 entries), weights W1 (4096 x 256), b1 (256), W2 (256 x 4096), b2 (4096), over the extended
  reals:
      hidden j = max (sum over k of x k * W1 k j  +  b1 j) 0
      feat c   = sum over j of hidden j * W2 j c  +  b2 c
      kept c   = feat c where x c is not zero, else 0
      total    = sum over c of kept c
      denom    = 1 where total is zero, else total
      out c    = feat c / denom where x c is not zero, else 0.
  The comparisons and the choice are spelt with the exact comparison (Ideal.cmp: une is "differs", oeq is "equals") and
  Scalar.select (the first value where the comparison holds, the second otherwise); zero and one are the values of
  the float words 0x00000000 and 0x3F800000, kept as words: the same word on both sides is never evaluated.
  Every row of the result depends on its own row of x only; the whole-array function G reads row (i 0) of x.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-- The value of the float word for 0.0. -/
abbrev zero : EReal := Ideal.ofBits .f32 0x00000000#32
/-- The value of the float word for 1.0. -/
abbrev one : EReal := Ideal.ofBits .f32 0x3F800000#32

variable (x : Fin 4096 → EReal) (w1 : Fin 4096 → Fin 256 → EReal) (b1 : Fin 256 → EReal)
  (w2 : Fin 256 → Fin 4096 → EReal) (b2 : Fin 4096 → EReal)

/-- The hidden layer of one row: the first affine map, clipped below at zero. -/
def hidden (j : Fin 256) : EReal := max ((∑ k : Fin 4096, x k * w1 k j) + b1 j) zero

/-- The second affine map of the hidden layer. -/
def feat (c : Fin 4096) : EReal := (∑ j : Fin 256, hidden x w1 b1 j * w2 j c) + b2 c

/-- The entries kept by the mask "x c differs from zero". -/
def kept (c : Fin 4096) : EReal := Scalar.select (Ideal.cmp .une (x c) zero) (feat x w1 b1 w2 b2 c) zero

/-- The row's sum of the kept entries. -/
def total : EReal := ∑ c : Fin 4096, kept x w1 b1 w2 b2 c

/-- The divisor: one for a row whose kept entries sum to zero, else that sum. -/
def denom : EReal :=
  Scalar.select (Ideal.cmp .oeq (total x w1 b1 w2 b2) zero) one (total x w1 b1 w2 b2)

/-- The row of the result: the kept entries divided by the divisor, zero elsewhere. -/
def out (c : Fin 4096) : EReal :=
  Scalar.select (Ideal.cmp .une (x c) zero) (Ideal.div (feat x w1 b1 w2 b2 c) (denom x w1 b1 w2 b2)) zero

/-- The row of the result depends on its arguments through their values only. -/
theorem out_congr {x x' : Fin 4096 → EReal} {w1 w1' : Fin 4096 → Fin 256 → EReal} {b1 b1' : Fin 256 → EReal}
    {w2 w2' : Fin 256 → Fin 4096 → EReal} {b2 b2' : Fin 4096 → EReal}
    (hx : ∀ k, x k = x' k) (hw1 : ∀ k j, w1 k j = w1' k j) (hb1 : ∀ j, b1 j = b1' j)
    (hw2 : ∀ j c, w2 j c = w2' j c) (hb2 : ∀ c, b2 c = b2' c) (c : Fin 4096) :
    out x w1 b1 w2 b2 c = out x' w1' b1' w2' b2' c := by
  obtain rfl : x = x' := funext hx
  obtain rfl : w1 = w1' := funext fun k => funext (hw1 k)
  obtain rfl : b1 = b1' := funext hb1
  obtain rfl : w2 = w2' := funext fun j => funext (hw2 j)
  obtain rfl : b2 = b2' := funext hb2
  rfl

end Cert.RowSpec

namespace Cert.RowSpec

open Idealize.ShloMosaic Idealize.ShloMosaic.ValueIdx

/-- The whole result, entry (r, c), from the five argument arrays: row r of x through `out`. -/
def entry (x : (⟨2, ![8192, 4096]⟩ : Shape).Idx → EReal) (w1 : (⟨2, ![4096, 256]⟩ : Shape).Idx → EReal)
    (b1 : (⟨1, ![256]⟩ : Shape).Idx → EReal) (w2 : (⟨2, ![256, 4096]⟩ : Shape).Idx → EReal)
    (b2 : (⟨1, ![4096]⟩ : Shape).Idx → EReal) (r : Fin 8192) (c : Fin 4096) : EReal :=
  out (fun k => x (ix2 r k)) (fun k j => w1 (ix2 k j)) (fun j => b1 (ix1 j)) (fun j c => w2 (ix2 j c))
    (fun c => b2 (ix1 c)) c

/-- The whole result as one function of the argument arrays, index by index. -/
def G (x : (⟨2, ![8192, 4096]⟩ : Shape).Idx → EReal) (w1 : (⟨2, ![4096, 256]⟩ : Shape).Idx → EReal)
    (b1 : (⟨1, ![256]⟩ : Shape).Idx → EReal) (w2 : (⟨2, ![256, 4096]⟩ : Shape).Idx → EReal)
    (b2 : (⟨1, ![4096]⟩ : Shape).Idx → EReal) : (⟨2, ![8192, 4096]⟩ : Shape).Idx → EReal :=
  fun i => entry x w1 b1 w2 b2 (i 0) (i 1)

theorem G_ix2 (x : (⟨2, ![8192, 4096]⟩ : Shape).Idx → EReal) (w1 : (⟨2, ![4096, 256]⟩ : Shape).Idx → EReal)
    (b1 : (⟨1, ![256]⟩ : Shape).Idx → EReal) (w2 : (⟨2, ![256, 4096]⟩ : Shape).Idx → EReal)
    (b2 : (⟨1, ![4096]⟩ : Shape).Idx → EReal) (r : Fin 8192) (c : Fin 4096) :
    G x w1 b1 w2 b2 (ix2 r c) = entry x w1 b1 w2 b2 r c := rfl

end Cert.RowSpec

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.KernelRow.lean ====
/-
  The kernel body's stored value, read at an entry (p, c) of its 128 x 4096 block, is the row function of RowSpec
  applied to row p of the loaded x block and to the whole loaded weight blocks.

  The body computes, on a 128-row block, the two matrix products into zero accumulators (plain sums over the
  contracted coordinate), adds the biases (one row broadcast down the block), clips at zero, masks by "x differs from
  zero", sums the masked row along the lanes, keeps the sum as a column, replaces a zero sum by one, broadcasts the
  column across the lanes and divides.  Changes of float format are the identity on the exact values.
-/
import proofs.«116124_j30528627540483_1_alg».proof.Proof.Gen.KernelIdeal.Skeleton
import proofs.«116124_j30528627540483_1_alg».proof.Proof.RowSpec
import proofs.«116124_j30528627540483_1_alg».proof.Proof.LibPlainDot
import proofs.«116124_j30528627540483_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx

variable (v0 : FVec Ideal S128x4096 .f32) (v2 : FVec Ideal S4096x256 .bf16) (v5 : FVec Ideal S1x256 .f32)
  (v12 : FVec Ideal S256x4096 .bf16) (v15 : FVec Ideal S1x4096 .f32)

/-- The block's hidden layer, as the body spells it. -/
def hidV : FVec Ideal S128x256 .f32 :=
  maximumf
    (addf
      (matmul dot_S128x4096_S4096x256_S128x256_1_0_0_1_n_n none (truncf .bf16 v0 bitsLt_bf16_f32)
        (shapeCast S4096x256 v2 shapeCasts_S4096x256_S4096x256) (constant S128x256 .f32 0x00000000#32))
      (broadcastTo S128x256 (shapeCast S1x256 v5 shapeCasts_S1x256_S1x256) broadcasts_S1x256_S128x256))
    (broadcast S128x256 (Scalar.ofBits .f32 0x00000000#32))

/-- The block's second affine map. -/
def featV : FVec Ideal S128x4096 .f32 :=
  addf
    (matmul dot_S128x256_S256x4096_S128x4096_1_0_0_1_n_n none (truncf .bf16 (hidV v0 v2 v5) bitsLt_bf16_f32)
      (shapeCast S256x4096 v12 shapeCasts_S256x4096_S256x4096) (constant S128x4096 .f32 0x00000000#32))
    (broadcastTo S128x4096 (shapeCast S1x4096 v15 shapeCasts_S1x4096_S1x4096) broadcasts_S1x4096_S128x4096)

/-- The mask: x differs from zero. -/
def maskV : IVec S128x4096 1 := cmpf .one v0 (broadcast S128x4096 (Scalar.ofBits .f32 0x00000000#32))

/-- The kept entries. -/
def keptV : FVec Ideal S128x4096 .f32 :=
  select (maskV v0) (featV v0 v2 v5 v12 v15) (broadcast S128x4096 (Scalar.ofBits .f32 0x00000000#32))

/-- The rows' sums of the kept entries, as a column. -/
def totV : FVec Ideal S128x1 .f32 :=
  shapeCast S128x1
    (multiReduction .add [1] S128 (keptV v0 v2 v5 v12 v15) 0x00000000#32 reduces_S128x4096_S128 (.inl rfl) rfl)
    shapeCasts_S128_S128x1

/-- The divisors, as a column. -/
def denV : FVec Ideal S128x1 .f32 :=
  select (cmpf .oeq (totV v0 v2 v5 v12 v15) (broadcast S128x1 (Scalar.ofBits .f32 0x00000000#32)))
    (broadcast S128x1 (Scalar.ofBits .f32 0x3F800000#32)) (totV v0 v2 v5 v12 v15)

/-- The stored value is the masked quotient of these stages. -/
theorem pay_eq : k0_pay1 (F := Ideal) v0 v2 v5 v12 v15
    = select (maskV v0)
        (divf (featV v0 v2 v5 v12 v15) (broadcastTo S128x4096 (denV v0 v2 v5 v12 v15) broadcasts_S128x1_S128x4096))
        (broadcast S128x4096 (Scalar.ofBits .f32 0x00000000#32)) := rfl

/-- The hidden layer at (p, j): the row function's, of row p of the x block. -/
theorem hidV_apply (p : Fin 128) (j : Fin 256) :
    hidV v0 v2 v5 (ix2 p j)
      = RowSpec.hidden (fun k => v0 (ix2 p k)) (fun k j => v2 (ix2 k j)) (fun j => v5 (ix2 (0 : Fin 1) j)) j := by
  unfold hidV RowSpec.hidden
  rw [maximumf_apply, addf_apply, broadcast_apply, shapeCast_self, shapeCast_self]
  refine congrArg₂ max (congrArg₂ (· + ·) ?_ ?_) rfl
  · exact LibPlainDot.matmul_zero_plain 128 4096 256 none (truncf .bf16 v0 bitsLt_bf16_f32) v2 (ix2 p j)
  · exact broadcastTo_1b_ab_apply v5 broadcasts_S1x256_S128x256 p j

/-- The second affine map at (p, c). -/
theorem featV_apply (p : Fin 128) (c : Fin 4096) :
    featV v0 v2 v5 v12 v15 (ix2 p c)
      = RowSpec.feat (fun k => v0 (ix2 p k)) (fun k j => v2 (ix2 k j)) (fun j => v5 (ix2 (0 : Fin 1) j))
          (fun j c => v12 (ix2 j c)) (fun c => v15 (ix2 (0 : Fin 1) c)) c := by
  unfold featV RowSpec.feat
  rw [addf_apply, shapeCast_self, shapeCast_self]
  refine congrArg₂ (· + ·) ?_ ?_
  · refine (LibPlainDot.matmul_zero_plain 128 256 4096 none (truncf .bf16 (hidV v0 v2 v5) bitsLt_bf16_f32) v12 (ix2 p c)).trans ?_
    exact Finset.sum_congr rfl fun j _ => congrArg (· * v12 (ix2 j c)) (hidV_apply v0 v2 v5 p j)
  · exact broadcastTo_1b_ab_apply v15 broadcasts_S1x4096_S128x4096 p c

/-- The kept entry at (p, c). -/
theorem keptV_apply (p : Fin 128) (c : Fin 4096) :
    keptV v0 v2 v5 v12 v15 (ix2 p c)
      = RowSpec.kept (fun k => v0 (ix2 p k)) (fun k j => v2 (ix2 k j)) (fun j => v5 (ix2 (0 : Fin 1) j))
          (fun j c => v12 (ix2 j c)) (fun c => v15 (ix2 (0 : Fin 1) c)) c := by
  unfold keptV RowSpec.kept maskV
  rw [select_apply, featV_apply]
  rfl

/-- The row's sum of kept entries, read at (p, u) of the column. -/
theorem totV_apply (p : Fin 128) (u : Fin 1) :
    totV v0 v2 v5 v12 v15 (ix2 p u)
      = RowSpec.total (fun k => v0 (ix2 p k)) (fun k j => v2 (ix2 k j)) (fun j => v5 (ix2 (0 : Fin 1) j))
          (fun j c => v12 (ix2 j c)) (fun c => v15 (ix2 (0 : Fin 1) c)) := by
  unfold totV RowSpec.total
  refine (LibKeepdims.shapeCast_a_a1_apply _ shapeCasts_S128_S128x1 p u).trans ?_
  refine (LibKeepdims.multiReduction_add_last_ab (keptV v0 v2 v5 v12 v15) 0x00000000#32 reduces_S128x4096_S128 (.inl rfl) rfl p).trans ?_
  exact Finset.sum_congr rfl fun c _ => keptV_apply v0 v2 v5 v12 v15 p c

/-- The divisor, read at (p, u) of the column. -/
theorem denV_apply (p : Fin 128) (u : Fin 1) :
    denV v0 v2 v5 v12 v15 (ix2 p u)
      = RowSpec.denom (fun k => v0 (ix2 p k)) (fun k j => v2 (ix2 k j)) (fun j => v5 (ix2 (0 : Fin 1) j))
          (fun j c => v12 (ix2 j c)) (fun c => v15 (ix2 (0 : Fin 1) c)) := by
  unfold denV RowSpec.denom
  rw [select_apply, cmpf_apply, totV_apply]
  rfl

/-- THE STORED VALUE at (p, c) of the block: the row function of row p. -/
theorem pay_apply (p : Fin 128) (c : Fin 4096) :
    k0_pay1 (F := Ideal) v0 v2 v5 v12 v15 (ix2 p c)
      = RowSpec.out (fun k => v0 (ix2 p k)) (fun k j => v2 (ix2 k j)) (fun j => v5 (ix2 (0 : Fin 1) j))
          (fun j c => v12 (ix2 j c)) (fun c => v15 (ix2 (0 : Fin 1) c)) c := by
  rw [pay_eq]
  unfold RowSpec.out maskV
  rw [select_apply, divf_apply, featV_apply,
    LibKeepdims.broadcastTo_a1_ab_apply (denV v0 v2 v5 v12 v15) broadcasts_S128x1_S128x4096 p c, denV_apply]
  rfl

end Cert.KernelRow

end
-- ==== Proof.KernelArray.lean ====
/-
  From the blocks the grid points write back to the whole result array of the idealized kernel.

  Grid point t (of 64) reads rows 128 t ... 128 t + 127 of x and the whole weight arrays, and writes back rows
  128 t ... 128 t + 127 of the result: entry (p, q) of its block is the row function of row 128 t + p of x.  The 64
  blocks tile the 8192 rows, so the result array after the run is one function of the arrays the region finds.  The
  weight arrays the region finds were written by host operations before it: W1 and W2 changed to bf16 (the identity on
  the exact values), b1 and b2 recast as one-row matrices.
-/
import proofs.«116124_j30528627540483_1_alg».proof.Proof.Gen.KernelIdeal.Value
import proofs.«116124_j30528627540483_1_alg».proof.Proof.KernelRow
import proofs.«116124_j30528627540483_1_alg».proof.Proof.RowSpec
import Idealize.ShloMosaic.Lib.Pipeline.Value
import Idealize.ShloMosaic.Lib.StableHlo.Run
import Idealize.ShloMosaic.Lib.ValueIdx
import Idealize.ShloMosaic.Lib.ValueLayout

noncomputable section

namespace Cert.KernelArray

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as a function of the arrays the region's windows read: x, the two weight matrices, and the two biases
    as one-row matrices. -/
def GK (a0 : S8192x4096.Idx → EReal) (a1 : S4096x256.Idx → EReal) (a2 : S1x256.Idx → EReal)
    (a3 : S256x4096.Idx → EReal) (a4 : S1x4096.Idx → EReal) : S8192x4096.Idx → EReal :=
  fun i => RowSpec.out (fun k => a0 (ix2 (i 0) k)) (fun k j => a1 (ix2 k j)) (fun j => a2 (ix2 (0 : Fin 1) j))
    (fun j c => a3 (ix2 j c)) (fun c => a4 (ix2 (0 : Fin 1) c)) (i 1)

/-- The block indices over the grid: the x window and the result window are at block row t, column 0; the weight and
    bias windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read at coordinates -/

/-- Entry (p, k) of the x block at point t is entry (128 t + p, k) of x. -/
theorem blk0 (c : Dev nD) (t : Fin cfg0.N) (p : Fin 128) (k : Fin 4096) (r : Fin 8192) (hr : r.val = t.val * 128 + p.val) :
    (iblk m c 0 t : FVec Ideal S128x4096 .f32) (ix2 p k) = (V m c main_arg0 : S8192x4096.Idx → EReal) (ix2 r k) := by
  obtain ⟨e0, e1, -⟩ := idx_facts t
  show V m c main_arg0 (((cfg0.win 0).blk t).view.emb (ix2 p k)) = V m c main_arg0 (ix2 r k)
  refine congrArg (V m c main_arg0) ?_
  funext a; apply Fin.ext
  match a with
  | ⟨0, _⟩ => show win0_0.index t (0 : Fin 2) * 128 + 1 * p.val = r.val; omega
  | ⟨1, _⟩ => show win0_0.index t (1 : Fin 2) * 4096 + 1 * k.val = k.val; omega

/-- The W1 block at any point is the whole array the region finds. -/
theorem blk1 (c : Dev nD) (t : Fin cfg0.N) (k : Fin 4096) (j : Fin 256) :
    (iblk m c 1 t : FVec Ideal S4096x256 .bf16) (ix2 k j) = (V m c main_v0 : S4096x256.Idx → EReal) (ix2 k j) := by
  obtain ⟨-, -, e0, e1, -⟩ := idx_facts t
  show V m c main_v0 (((cfg0.win 1).blk t).view.emb (ix2 k j)) = V m c main_v0 (ix2 k j)
  refine congrArg (V m c main_v0) ?_
  funext a; apply Fin.ext
  match a with
  | ⟨0, _⟩ => show win0_1.index t (0 : Fin 2) * 4096 + 1 * k.val = k.val; omega
  | ⟨1, _⟩ => show win0_1.index t (1 : Fin 2) * 256 + 1 * j.val = j.val; omega

/-- The b1 block at any point is the whole one-row array. -/
theorem blk2 (c : Dev nD) (t : Fin cfg0.N) (u : Fin 1) (j : Fin 256) :
    (iblk m c 2 t : FVec Ideal S1x256 .f32) (ix2 u j) = (V m c main_v2 : S1x256.Idx → EReal) (ix2 u j) := by
  obtain ⟨-, -, -, -, e0, e1, -⟩ := idx_facts t
  show V m c main_v2 (((cfg0.win 2).blk t).view.emb (ix2 u j)) = V m c main_v2 (ix2 u j)
  refine congrArg (V m c main_v2) ?_
  funext a; apply Fin.ext
  match a with
  | ⟨0, _⟩ => show win0_2.index t (0 : Fin 2) * 1 + 1 * u.val = u.val; omega
  | ⟨1, _⟩ => show win0_2.index t (1 : Fin 2) * 256 + 1 * j.val = j.val; omega

/-- The W2 block at any point is the whole array the region finds. -/
theorem blk3 (c : Dev nD) (t : Fin cfg0.N) (j : Fin 256) (q : Fin 4096) :
    (iblk m c 3 t : FVec Ideal S256x4096 .bf16) (ix2 j q) = (V m c main_v1 : S256x4096.Idx → EReal) (ix2 j q) := by
  obtain ⟨-, -, -, -, -, -, e0, e1, -⟩ := idx_facts t
  show V m c main_v1 (((cfg0.win 3).blk t).view.emb (ix2 j q)) = V m c main_v1 (ix2 j q)
  refine congrArg (V m c main_v1) ?_
  funext a; apply Fin.ext
  match a with
  | ⟨0, _⟩ => show win0_3.index t (0 : Fin 2) * 256 + 1 * j.val = j.val; omega
  | ⟨1, _⟩ => show win0_3.index t (1 : Fin 2) * 4096 + 1 * q.val = q.val; omega

/-- The b2 block at any point is the whole one-row array. -/
theorem blk4 (c : Dev nD) (t : Fin cfg0.N) (u : Fin 1) (q : Fin 4096) :
    (iblk m c 4 t : FVec Ideal S1x4096 .f32) (ix2 u q) = (V m c main_v3 : S1x4096.Idx → EReal) (ix2 u q) := by
  obtain ⟨-, -, -, -, -, -, -, -, e0, e1, -⟩ := idx_facts t
  show V m c main_v3 (((cfg0.win 4).blk t).view.emb (ix2 u q)) = V m c main_v3 (ix2 u q)
  refine congrArg (V m c main_v3) ?_
  funext a; apply Fin.ext
  match a with
  | ⟨0, _⟩ => show win0_4.index t (0 : Fin 2) * 1 + 1 * u.val = u.val; omega
  | ⟨1, _⟩ => show win0_4.index t (1 : Fin 2) * 4096 + 1 * q.val = q.val; omega

/-! ## What a point writes back -/

/-- WHAT POINT t WRITES BACK is block t of the result function of the arrays the region finds. -/
theorem flushed_eq (c : Dev nD) (t : Fin cfg0.N) :
    (dats m 0 c).flushed 5 t = ((cfg0.win 5).blk t).view.read (Elt Ideal)
      (GK (V m c main_arg0) (V m c main_v0) (V m c main_v2) (V m c main_v1) (V m c main_v3)) := by
  rw [flushed5]
  unfold out0_5
  rw [View.canon_unit_zero hz]
  simp only [View.ld_unit_zero (S := S128x4096) hz, View.ld_unit_zero (S := S4096x256) hz,
    View.ld_unit_zero (S := S1x256) hz, View.ld_unit_zero (S := S256x4096) hz, View.ld_unit_zero (S := S1x4096) hz]
  obtain ⟨-, -, -, -, -, -, -, -, -, -, e0, e1⟩ := idx_facts t
  funext j
  obtain ⟨p, q, rfl⟩ : ∃ (p : Fin 128) (q : Fin 4096), j = ix2 p q := ⟨j 0, j 1, eq_ix2 j⟩
  have hN : cfg0.N = 64 := N_0
  have hr : t.val * 128 + p.val < 8192 := by have := t.isLt; have := p.isLt; omega
  show k0_pay1 (F := Ideal) (iblk m c 0 t) (iblk m c 1 t) (iblk m c 2 t) (iblk m c 3 t) (iblk m c 4 t) (ix2 p q)
    = GK (V m c main_arg0) (V m c main_v0) (V m c main_v2) (V m c main_v1) (V m c main_v3)
        (((cfg0.win 5).blk t).view.emb (ix2 p q))
  have he : ((cfg0.win 5).blk t).view.emb (ix2 p q) = ix2 (⟨t.val * 128 + p.val, hr⟩ : Fin 8192) q := by
    funext a; apply Fin.ext
    match a with
    | ⟨0, _⟩ => show win0_5.index t (0 : Fin 2) * 128 + 1 * p.val = t.val * 128 + p.val; omega
    | ⟨1, _⟩ => show win0_5.index t (1 : Fin 2) * 4096 + 1 * q.val = q.val; omega
  rw [he]
  refine (KernelRow.pay_apply (iblk m c 0 t) (iblk m c 1 t) (iblk m c 2 t) (iblk m c 3 t) (iblk m c 4 t) p q).trans ?_
  exact RowSpec.out_congr (fun k => blk0 m c t p k ⟨t.val * 128 + p.val, hr⟩ rfl) (fun k j => blk1 m c t k j)
    (fun j => blk2 m c t 0 j) (fun j q => blk3 m c t j q) (fun q => blk4 m c t 0 q) q

/-! ## The cover -/

/-- An index of the result is in point t's block iff its row is one of the block's 128 rows. -/
theorem mem_blk (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v4).slice (win0_5.rect t)).set ↔ _
  rw [View.set_slice_whole, Rect.mem_set_unit]
  exact Iff.rfl

/-- Every index of the result is in the block of the point its row divided by 128 names. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  have ht : (i 0).val / 128 < cfg0.N := by rw [hN]; omega
  obtain ⟨-, -, -, -, -, -, -, -, -, -, e0, e1⟩ := idx_facts ⟨(i 0).val / 128, ht⟩
  refine ⟨⟨(i 0).val / 128, ht⟩, flush0_5 _, ?_⟩
  rw [mem_blk]
  intro a
  match a with
  | ⟨0, _⟩ =>
    show win0_5.index ⟨(i 0).val / 128, ht⟩ (0 : Fin 2) * 128 ≤ (i 0).val
      ∧ (i 0).val < win0_5.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_5.index ⟨(i 0).val / 128, ht⟩ (1 : Fin 2) * 4096 ≤ (i 1).val
      ∧ (i 1).val < win0_5.index ⟨(i 0).val / 128, ht⟩ (1 : Fin 2) * 4096 + 4096
    rw [e1]; omega

/-- THE RESULT ARRAY after the run, as a function of the arrays the region finds. -/
theorem final (c : Dev nD) : (dats m 0 c).arrAt 5 cfg0.N
    = GK (V m c main_arg0) (V m c main_v0) (V m c main_v2) (V m c main_v1) (V m c main_v3) :=
  (dats m 0 c).arrAt_eq_of_cover 5 _ (fun t _ => flushed_eq m c t) cover

end Cert.KernelArray

end
-- ==== Proof.KernelHost.lean ====
/-
  The arrays the region finds that host operations wrote before it: W1 and W2 changed to bf16 — on the exact values
  the very arrays W1 and W2 — and b1, b2 recast from vectors to one-row matrices, whose entry (0, j) is the vector's
  entry j.
-/
import proofs.«116124_j30528627540483_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelHost

open Cert.KernelIdeal Cert.KernelIdeal.Gen Idealize.ShloMosaic Idealize.ShloMosaic.TcCoe
open Idealize.SL.Sem Idealize.ShloMosaic.ValueIdx Idealize.ShloMosaic.StableHlo

variable (m : (ℓ : Loc nD τ sig) → Buf (Elt Ideal) ℓ)

/-- The first weight matrix as the region finds it: W1 after its change of float format. -/
theorem V_v0 (c : Dev nD) : (V m c main_v0 : S4096x256.Idx → EReal)
    = (truncf .bf16 (m ((c : Thread nD τ).loc main_arg1) : FVec Ideal S4096x256 .f32) bitsLt_bf16_f32
        : FVec Ideal S4096x256 .bf16) := by
  dsimp only [Gen.V, Gen.hostOps0]; after_results

/-- The second weight matrix as the region finds it: W2 after its change of float format. -/
theorem V_v1 (c : Dev nD) : (V m c main_v1 : S256x4096.Idx → EReal)
    = (truncf .bf16 (m ((c : Thread nD τ).loc main_arg3) : FVec Ideal S256x4096 .f32) bitsLt_bf16_f32
        : FVec Ideal S256x4096 .bf16) := by
  dsimp only [Gen.V, Gen.hostOps0]; after_results

/-- The first bias as the region finds it: b1 recast as a one-row matrix. -/
theorem V_v2 (c : Dev nD) : (V m c main_v2 : S1x256.Idx → EReal)
    = shapeCast S1x256 (m ((c : Thread nD τ).loc main_arg2) : S256.Idx → EReal) shapeCasts_S256_S1x256 := by
  dsimp only [Gen.V, Gen.hostOps0]; after_results; rfl

/-- The second bias as the region finds it: b2 recast as a one-row matrix. -/
theorem V_v3 (c : Dev nD) : (V m c main_v3 : S1x4096.Idx → EReal)
    = shapeCast S1x4096 (m ((c : Thread nD τ).loc main_arg4) : S4096.Idx → EReal) shapeCasts_S4096_S1x4096 := by
  dsimp only [Gen.V, Gen.hostOps0]; after_results; rfl

/-- Entry (k, j) of the first weight matrix the region finds is W1's. -/
theorem V_v0_apply (c : Dev nD) (k : Fin 4096) (j : Fin 256) :
    (V m c main_v0 : S4096x256.Idx → EReal) (ix2 k j)
      = (m ((c : Thread nD τ).loc main_arg1) : S4096x256.Idx → EReal) (ix2 k j) := by
  rw [V_v0]; rfl

/-- Entry (j, q) of the second weight matrix the region finds is W2's. -/
theorem V_v1_apply (c : Dev nD) (j : Fin 256) (q : Fin 4096) :
    (V m c main_v1 : S256x4096.Idx → EReal) (ix2 j q)
      = (m ((c : Thread nD τ).loc main_arg3) : S256x4096.Idx → EReal) (ix2 j q) := by
  rw [V_v1]; rfl

/-- Entry (0, j) of the one-row first bias is b1's entry j. -/
theorem V_v2_apply (c : Dev nD) (u : Fin 1) (j : Fin 256) :
    (V m c main_v2 : S1x256.Idx → EReal) (ix2 u j) = (m ((c : Thread nD τ).loc main_arg2) : S256.Idx → EReal) (ix1 j) := by
  rw [V_v2]; exact shapeCast_a_1a_apply _ shapeCasts_S256_S1x256 u j

/-- Entry (0, q) of the one-row second bias is b2's entry q. -/
theorem V_v3_apply (c : Dev nD) (u : Fin 1) (q : Fin 4096) :
    (V m c main_v3 : S1x4096.Idx → EReal) (ix2 u q) = (m ((c : Thread nD τ).loc main_arg4) : S4096.Idx → EReal) (ix1 q) := by
  rw [V_v3]; exact shapeCast_a_1a_apply _ shapeCasts_S4096_S1x4096 u q

end Cert.KernelHost

end
-- ==== Proof.KernelRun.lean ====
/-
  The idealized kernel's run, read: the result array ends holding the whole-array function of RowSpec of the five
  argument arrays, and the arguments end unchanged.  The result function of the arrays the region finds is the
  result function of the arguments, since those arrays are x itself, W1 and W2 up to a change of float format (the
  identity on the exact values) and the biases recast as one-row matrices.
-/
import proofs.«116124_j30528627540483_1_alg».proof.Proof.KernelArray
import proofs.«116124_j30528627540483_1_alg».proof.Proof.KernelHost

noncomputable section

namespace Cert.KernelRun

open Cert.KernelIdeal Cert.KernelIdeal.Gen Cert.KernelIdeal.Value Idealize.ShloMosaic Idealize.ShloMosaic.TcCoe
open Idealize.SL.Sem Idealize.ShloMosaic.ValueIdx

variable (m : (ℓ : Loc nD τ sig) → Buf (Elt Ideal) ℓ) (ρ : Dev nD → PrngReg)

/-- The result function of the arrays the region finds is the result function of the argument arrays. -/
theorem GK_eq (c : Dev nD) :
    KernelArray.GK (V m c main_arg0) (V m c main_v0) (V m c main_v2) (V m c main_v1) (V m c main_v3)
      = RowSpec.G (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  unfold KernelArray.GK RowSpec.G RowSpec.entry
  exact RowSpec.out_congr (fun k => by rw [V_main_arg0]) (fun k j => KernelHost.V_v0_apply m c k j)
    (fun j => KernelHost.V_v2_apply m c 0 j) (fun j q => KernelHost.V_v1_apply m c j q)
    (fun q => KernelHost.V_v3_apply m c 0 q) (i 1)

/-- THE RUN of the idealized kernel: the result array at the whole-array function of the arguments, the arguments
    unchanged. -/
theorem run : θ_run defs (onTc (τ := τ) (main (F := Ideal))) ⟨m, fun _ => 0, ρ⟩ fun r => ∀ c : Dev nD,
      r.2.mem ((c : Thread nD τ).loc main_v4)
        = RowSpec.G (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((KernelArray.final m c).trans (GK_eq m c)), (h c).2⟩)
    (Value.run_blocks m ρ)

end Cert.KernelRun

end
-- ==== Proof.RefRow.lean ====
/-
  The reference's result, read at an entry (r, c), is the row function of RowSpec applied to row r of x.

  The reference computes on the whole arrays: x W1 + b1 (the bias laid along a row and repeated down the rows),
  clipped at zero, times W2 plus b2, masked by "x differs from zero", summed along each row (the initial value zero
  plus the row's sum), kept as a column, a zero sum replaced by one, broadcast across the row and divided.  Each
  stage is read at an index from the stages before it; the composed index functions are the coordinates (r, k),
  (k, j), (j), ... one expects.
-/
import proofs.«116124_j30528627540483_1_alg».proof.Proof.Gen.ReferenceIdeal.Read
import proofs.«116124_j30528627540483_1_alg».proof.Proof.RowSpec
import Idealize.ShloMosaic.Lib.ValueIdx
import Idealize.ShloMosaic.PureOps.Ideal.Laws

noncomputable section

namespace Cert.RefRow

open Cert.ReferenceIdeal Cert.ReferenceIdeal.Read Idealize.ShloMosaic Idealize.ShloMosaic.ValueIdx

variable (x0 : FVec Ideal S8192x4096 .f32) (x1 : FVec Ideal S4096x256 .f32) (x2 : FVec Ideal S256 .f32)
  (x3 : FVec Ideal S256x4096 .f32) (x4 : FVec Ideal S4096 .f32)

/-! ## The composed index functions, at coordinates -/

theorem lidx0 (r : Fin 8192) (j : Fin 256) (k : Fin 4096) : lidx_main_v0 (ix2 r j) k = ix2 r k := by
  funext a; apply Fin.ext; match a with | ⟨0, _⟩ => rfl | ⟨1, _⟩ => rfl
theorem ridx0 (r : Fin 8192) (j : Fin 256) (k : Fin 4096) : ridx_main_v0 (ix2 r j) k = ix2 k j := by
  funext a; apply Fin.ext; match a with | ⟨0, _⟩ => rfl | ⟨1, _⟩ => rfl
theorem idx21 (r : Fin 8192) (j : Fin 256) : idx_main_v1 (idx_main_v2 (ix2 r j)) = ix1 j := by
  funext a; apply Fin.ext; match a with | ⟨0, _⟩ => rfl
theorem lidx5 (r : Fin 8192) (c : Fin 4096) (j : Fin 256) : lidx_main_v5 (ix2 r c) j = ix2 r j := by
  funext a; apply Fin.ext; match a with | ⟨0, _⟩ => rfl | ⟨1, _⟩ => rfl
theorem ridx5 (r : Fin 8192) (c : Fin 4096) (j : Fin 256) : ridx_main_v5 (ix2 r c) j = ix2 j c := by
  funext a; apply Fin.ext; match a with | ⟨0, _⟩ => rfl | ⟨1, _⟩ => rfl
theorem idx76 (r : Fin 8192) (c : Fin 4096) : idx_main_v6 (idx_main_v7 (ix2 r c)) = ix1 c := by
  funext a; apply Fin.ext; match a with | ⟨0, _⟩ => rfl
theorem idx12 (r : Fin 8192) (k : Fin 4096) : idx_main_v12 (ix1 r) k = ix2 r k := by
  funext a; apply Fin.ext; match a with | ⟨0, _⟩ => rfl | ⟨1, _⟩ => rfl
theorem idx13 (r : Fin 8192) (u : Fin 1) : idx_main_v13 (ix2 r u) = ix1 r := by
  funext a; apply Fin.ext; match a with | ⟨0, _⟩ => rfl
theorem idx17 (r : Fin 8192) (c : Fin 4096) : idx_main_v17 (ix2 r c) = ix2 r (0 : Fin 1) := by
  funext a; apply Fin.ext; match a with | ⟨0, _⟩ => rfl | ⟨1, _⟩ => rfl

/-! ## The stages, at coordinates -/

/-- The hidden layer at (r, j). -/
theorem hid_apply (r : Fin 8192) (j : Fin 256) :
    val_main_v4 (F := Ideal) x0 x1 x2 (ix2 r j)
      = RowSpec.hidden (fun k => x0 (ix2 r k)) (fun k j => x1 (ix2 k j)) (fun j => x2 (ix1 j)) j := by
  rw [val_main_v4_apply, val_main_v3_apply, val_main_v0_apply, val_main_v2_apply, val_main_v1_apply,
    val_main_call0_v0_apply, val_main_call0_cst_apply, idx21]
  simp only [lidx0, ridx0]
  rfl

/-- The second affine map at (r, c). -/
theorem feat_apply (r : Fin 8192) (c : Fin 4096) :
    val_main_v8 (F := Ideal) x0 x1 x2 x3 x4 (ix2 r c)
      = RowSpec.feat (fun k => x0 (ix2 r k)) (fun k j => x1 (ix2 k j)) (fun j => x2 (ix1 j))
          (fun j c => x3 (ix2 j c)) (fun c => x4 (ix1 c)) c := by
  rw [val_main_v8_apply, val_main_v5_apply, val_main_v7_apply, val_main_v6_apply, idx76]
  simp only [lidx5, ridx5, hid_apply]
  rfl

/-- The mask at (r, c). -/
theorem mask_apply (r : Fin 8192) (c : Fin 4096) :
    val_main_v10 (F := Ideal) x0 (ix2 r c) = Ideal.cmp .une (x0 (ix2 r c)) RowSpec.zero := by
  rw [val_main_v10_apply, val_main_v9_apply, val_main_cst_apply]
  rfl

/-- The kept entry at (r, c). -/
theorem kept_apply (r : Fin 8192) (c : Fin 4096) :
    val_main_v11 (F := Ideal) x0 x1 x2 x3 x4 (ix2 r c)
      = RowSpec.kept (fun k => x0 (ix2 r k)) (fun k j => x1 (ix2 k j)) (fun j => x2 (ix1 j))
          (fun j c => x3 (ix2 j c)) (fun c => x4 (ix1 c)) c := by
  rw [val_main_v11_apply, mask_apply, feat_apply, val_main_call1_v1_apply, val_main_call1_v0_apply,
    val_main_cst_0_apply]
  rfl

/-- The row's sum of kept entries: the initial value zero plus the sum. -/
theorem total_apply (r : Fin 8192) :
    val_main_v12 (F := Ideal) x0 x1 x2 x3 x4 (ix1 r)
      = RowSpec.total (fun k => x0 (ix2 r k)) (fun k j => x1 (ix2 k j)) (fun j => x2 (ix1 j))
          (fun j c => x3 (ix2 j c)) (fun c => x4 (ix1 c)) := by
  rw [val_main_v12_apply, val_main_cst_1_apply]
  simp only [idx12, kept_apply]
  show Ideal.ofBits .f32 0x00000000#32 + _ = _
  rw [Ideal.ofBits_zero_f32, zero_add]
  rfl

/-- The divisor at (r, u) of the column. -/
theorem denom_apply (r : Fin 8192) (u : Fin 1) :
    val_main_v16 (F := Ideal) x0 x1 x2 x3 x4 (ix2 r u)
      = RowSpec.denom (fun k => x0 (ix2 r k)) (fun k j => x1 (ix2 k j)) (fun j => x2 (ix1 j))
          (fun j c => x3 (ix2 j c)) (fun c => x4 (ix1 c)) := by
  rw [val_main_v16_apply, val_main_v15_apply, val_main_v13_apply, idx13, total_apply, val_main_v14_apply,
    val_main_cst_2_apply, val_main_call2_v1_apply, val_main_call2_v0_apply, val_main_cst_3_apply]
  rfl

/-- THE REFERENCE'S RESULT at (r, c). -/
theorem result_apply (r : Fin 8192) (c : Fin 4096) :
    val_main_v19 (F := Ideal) x0 x1 x2 x3 x4 (ix2 r c) = RowSpec.entry x0 x1 x2 x3 x4 r c := by
  rw [val_main_v19_apply, mask_apply, val_main_v18_apply, feat_apply, val_main_v17_apply, idx17, denom_apply,
    val_main_call3_v1_apply, val_main_call3_v0_apply, val_main_cst_4_apply]
  rfl

/-- The reference's result IS the whole-array function of RowSpec. -/
theorem result_eq : val_main_v19 (F := Ideal) x0 x1 x2 x3 x4 = RowSpec.G x0 x1 x2 x3 x4 := by
  funext i
  obtain ⟨r, c, rfl⟩ : ∃ (r : Fin 8192) (c : Fin 4096), i = ix2 r c := ⟨i 0, i 1, eq_ix2 i⟩
  exact result_apply x0 x1 x2 x3 x4 r c

end Cert.RefRow

end
-- ==== Proof.lean ====
/-
  The masked, row-normalised two-layer perceptron: the kernel against its reference, on the extended reals.

  Both programs compute, for every row r of x,
      f = relu (x_r W1 + b1) W2 + b2,   kept = f where x_r differs from zero (else 0),   s = the sum of kept,
      y_r = f / (1 if s = 0 else s) where x_r differs from zero, else 0.
  The kernel does so on 64 blocks of 128 rows, with the weights changed to bf16 and the biases recast as one-row
  matrices beforehand; on the exact values a change of float format is the identity, a block matrix product into a
  zero accumulator and the whole-array product are the same sums over the contracted coordinate, and a row's entry
  depends on its own row of x only.  So both result arrays are ONE function of the arguments (RowSpec.G): no law of
  arithmetic is needed to join the two sides, and finiteness of the inputs is never used.
    Proof/RowSpec.lean      the row function and the whole-array function G
    Proof/KernelRow.lean    the kernel body's stored value at an entry of its block is the row function
    Proof/KernelArray.lean  from the 64 blocks to the whole result array
    Proof/KernelHost.lean   the arrays host operations wrote before the region
    Proof/KernelRun.lean    the idealized kernel's run at G
    Proof/RefRow.lean       the reference's result is G
  The three frames are the generated frame runs (the reference's its generated run with the result dropped); the
  idealization rewrote nothing, so its claim is trivial.
-/
import proofs.«116124_j30528627540483_1_alg».proof.Defs
import proofs.«116124_j30528627540483_1_alg».proof.Proof.Gen.Kernel
import proofs.«116124_j30528627540483_1_alg».proof.Proof.Gen.Kernel.Frame
import proofs.«116124_j30528627540483_1_alg».proof.Proof.Gen.KernelIdeal
import proofs.«116124_j30528627540483_1_alg».proof.Proof.Gen.KernelIdeal.Frame
import proofs.«116124_j30528627540483_1_alg».proof.Proof.Gen.KernelIdeal.Value
import proofs.«116124_j30528627540483_1_alg».proof.Proof.Gen.ReferenceIdeal
import proofs.«116124_j30528627540483_1_alg».proof.Proof.Gen.ReferenceIdeal.Run
import proofs.«116124_j30528627540483_1_alg».proof.Proof.Gen.ReferenceIdeal.Read
import proofs.«116124_j30528627540483_1_alg».proof.Proof.Gen.Pre_finite_inputs
import proofs.«116124_j30528627540483_1_alg».proof.Proof.KernelRun
import proofs.«116124_j30528627540483_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The idealized reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the one function
    RowSpec.G of the arguments. -/
theorem algebraic : Cert.algebraic_KernelIdeal_ReferenceIdeal := by
  intro m ρ m' ρ' _ hagree
  refine ⟨fun c => RowSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefRow.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
